-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S2048x1024 : Shape := ⟨2, ![2048, 1024]⟩
abbrev S2048x100x1024 : Shape := ⟨3, ![2048, 100, 1024]⟩
abbrev S16x1024 : Shape := ⟨2, ![16, 1024]⟩
abbrev S16x100x1024 : Shape := ⟨3, ![16, 100, 1024]⟩
abbrev S16x1x1024 : Shape := ⟨3, ![16, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x100x1024, .f32⟩
  | .local _ .vmem, ⟨0, _⟩ => ⟨S16x1024, .f32⟩
  | .local _ .vmem, ⟨1, _⟩ => ⟨S16x1024, .f32⟩
  | .local _ .vmem, ⟨2, _⟩ => ⟨S16x100x1024, .f32⟩
  | .local _ .vmem, ⟨3, _⟩ => ⟨S16x100x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x1024_S16x1024_0_0 : ∀ a, (![0, 0] : Fin 2 → Nat) a + S16x1024.size a ≤ S16x1024.size a
  h_S16x1024 : 0 < S16x1024.numel
  iota_S16x100x1024_d1_w32 : S16x100x1024.Iotas .tc 32 [1]
  shapeCasts_S16x1024_S16x1x1024 : S16x1024.ShapeCasts S16x1x1024
  broadcasts_S16x1x1024_S16x100x1024 : S16x1x1024.Broadcasts S16x100x1024
  natLt_1_32 : 1 < 32
  inb_S16x100x1024_S16x100x1024_0_0_0 : ∀ a, (![0, 0, 0] : Fin 3 → Nat) a + S16x100x1024.size a ≤ S16x100x1024.size a
  h_S16x100x1024 : 0 < S16x100x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024.size a ≤ S2048x1024.size a
  hwx0_0 : ∀ i : grid0.Coords, EltTy.bits .f32 = 32 ∨ (Rect.block (s := S2048x1024) S16x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x100x1024.size a ≤ S2048x100x1024.size a
  hwx0_1 : ∀ i : grid0.Coords, EltTy.bits .f32 = 32 ∨ (Rect.block (s := S2048x100x1024) S16x100x1024.size (cc0_transform_1 i) (hinb0_1 i)).WholeWords (EltTy.packing .f32)

variable [Facts₀]

abbrev win0_0 : Pipeline.Window sig grid0 :=
  Pipeline.Window.ofSpec (Memref.whole main_arg0) S16x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x100x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S_ : Shape := ⟨0, ![]⟩
abbrev S100 : Shape := ⟨1, ![100]⟩
abbrev S2048x1x1024 : Shape := ⟨3, ![2048, 1, 1024]⟩
abbrev S1x100x1 : Shape := ⟨3, ![1, 100, 1]⟩
abbrev S2048x100x1024 : Shape := ⟨3, ![2048, 100, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .i32⟩
  | .hbm, ⟨8, _⟩ => ⟨S100, .i32⟩
  | .hbm, ⟨9, _⟩ => ⟨S2048x1x1024, .i32⟩
  | .hbm, ⟨10, _⟩ => ⟨S1x100x1, .i32⟩
  | .hbm, ⟨11, _⟩ => ⟨S2048x100x1024, .i32⟩
  | .hbm, ⟨12, _⟩ => ⟨S2048x100x1024, .i32⟩
  | .hbm, ⟨13, _⟩ => ⟨S2048x100x1024, .i1⟩
  | .hbm, ⟨14, _⟩ => ⟨S2048x100x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  bcast_S2048x1024_S2048x1x1024_0_2 : S2048x1024.BroadcastsInDim S2048x1x1024 (![0, 2] : Fin 2 → Fin S2048x1x1024.rank)
  bcast_S100_S1x100x1_1 : S100.BroadcastsInDim S1x100x1 (![1] : Fin 1 → Fin S1x100x1.rank)
  bcast_S2048x1x1024_S2048x100x1024_0_1_2 : S2048x1x1024.BroadcastsInDim S2048x100x1024 (![0, 1, 2] : Fin 3 → Fin S2048x100x1024.rank)
  bcast_S1x100x1_S2048x100x1024_0_1_2 : S1x100x1.BroadcastsInDim S2048x100x1024 (![0, 1, 2] : Fin 3 → Fin S2048x100x1024.rank)

variable [Facts₀]

class Facts : Prop extends Facts₀ where

variable [Facts]
-- ==== Proof.SpikeTrain.lean ====
/-
  The latency-coded spike train as ONE function of the intensity array.

  An intensity `x` (an extended real) fires at the time step `⌊(1 - x) · 100⌋` read as a signed 32-bit word
  (the float-to-integer conversion of the exact product; whatever it does at the infinities or outside the word's
  range, it is one fixed function of the extended real it is given).  The train of an array `a[b, f]` of intensities
  over the 100 time steps is the indicator of that step,

      train a [b, t, f] = 1  if the firing step of a[b, f] is t,   0 otherwise,

  a real number (0 or 1) at every index.  It depends on the batch row `b` and the feature `f` only through the one
  entry `a[b, f]`, and on the time coordinate `t` only through the comparison.

  One law about words is needed to set two spellings of the indicator side by side: a one-bit word, widened with
  zeros to 32 bits and then read as a SIGNED integer, is the same number (0 or 1) as the bit read UNSIGNED.
-/
import Idealize.ShloMosaic.PureOps.Ideal
import Idealize.ShloMosaic.Lib.ValueIdx

noncomputable section

namespace Cert.SpikeTrain

open Idealize.ShloMosaic Idealize.ShloMosaic.ValueIdx

/-- The time step at which intensity `x` fires: `(1 - x) · 100` on the extended reals (the two literals are the
    binary words of 1.0 and 100.0), converted to a signed 32-bit word. -/
def fireStep (x : EReal) : BitVec 32 :=
  Ideal.fptosi 32 ((Ideal.ofBits .f32 0x3F800000#32 - x) * Ideal.ofBits .f32 0x42C80000#32)

/-- One entry of the train: the bit "the firing step of `x` is `t`", as the real number 0 or 1. -/
def spike (x : EReal) (t : Nat) : EReal :=
  (((IntOp.cmpi .eq (fireStep x) (BitVec.ofNat 32 t)).toNat : ℝ) : EReal)

/-- The whole train: entry `[b, t, f]` is the spike of `a[b, f]` at step `t`. -/
def train (a : (⟨2, ![2048, 1024]⟩ : Shape).Idx → EReal) : (⟨3, ![2048, 100, 1024]⟩ : Shape).Idx → EReal :=
  fun i => spike (a (ix2 (i 0) (i 2))) (i 1).val

/-- A bit widened with zeros to 32 bits is non-negative as a signed word: it reads as the bit itself (both bits
    checked). -/
theorem toInt_setWidth_bit : ∀ b : BitVec 1, (b.setWidth 32).toInt = (b.toNat : Int) := by decide

/-- So converting the widened bit as a SIGNED integer gives the same extended real as converting the bit UNSIGNED. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit b, Int.cast_natCast]

/-- The spike in the operations' own spelling at the exact instance: subtract from 1, scale by 100, convert to a
    word, compare with the step, convert the bit unsigned. -/
theorem spike_eq (x : EReal) (t : Nat) :
    FloatOps.uitofp (F := Ideal) .f32 (IntOp.cmpi .eq (FloatOps.fptosi (F := Ideal) (φ := .f32) 32
        (FloatOps.mulf (F := Ideal) (φ := .f32) (FloatOps.subf (F := Ideal) (φ := .f32) (FloatOps.ofBits .f32 0x3F800000#32) x)
          (FloatOps.ofBits .f32 0x42C80000#32))) (BitVec.ofNat 32 t)) = spike x t := rfl

end Cert.SpikeTrain

end
-- ==== Proof.LibMiddleAxis.lean ====
/-
  A UNIT AXIS IN THE MIDDLE, read at an index given by coordinates: the two layout steps by which a matrix `[a, b]` is
  spread along a new middle axis to `[a, c, b]` (`v[:, None, :]` broadcast against an array with a middle axis).

  • The shape cast `[a, b] → [a, 1, b]` keeps the row-major position: entry `(i, 0, j)` of the result is entry `(i, j)` of
    the operand, because `(i · 1 + 0) · b + j = i · b + j`.
  • The broadcast `[a, 1, b] → [a, c, b]` reads, at `(i, t, j)`, the operand at `(i, 0, j)`: the middle coordinate is
    forgotten, the outer ones kept (when `a` or `b` is itself 1 the kept coordinate is 0 in any case).
  • Together: the spread matrix at `(i, t, j)` is the matrix at `(i, j)`, whatever `t`.

  General in the extents and in the element type; nothing here mentions a program.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(i, u, j)`, the operand at `(i, j)`: the two indices have the same
    row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, t, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (t : Fin c) (j : Fin b) :
    broadcastTo ⟨3, ![a, c, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A matrix spread along a new middle axis reads, at `(i, t, j)`, the matrix at `(i, j)`. -/
theorem spread_middle_apply {a c b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (t : Fin c) (j : Fin b) :
    broadcastTo ⟨3, ![a, c, b]⟩ (shapeCast ⟨3, ![a, 1, b]⟩ x hc) hb (ix3 i t j) = x (ix2 i j) :=
  (broadcastTo_a1b_acb_apply _ hb i t j).trans (shapeCast_ab_a1b_apply x hc i 0 j)

end Cert.LibMiddleAxis
-- ==== Proof.KernelSpike.lean ====
/-
  One block of the kernel's output is one block of the spike train.

  At a grid point the body loads a block `x0` of 16 rows of intensities (16 × 1024) and stores a block of 16 × 100 × 1024
  values.  The stored value at `[p, t, f]` is: the bit "word A equals word B", widened with zeros to 32 bits and
  converted as a signed integer, where word A is the firing step of `x0[p, f]` — computed on the 16 × 1024 block,
  viewed 16 × 1 × 1024 and spread over the 100 time steps, so it does not depend on `t` — and word B is the counter along
  the time axis, the word `t`.  A widened bit converted signed is the bit converted unsigned, so this is the spike of
  `x0[p, f]` at step `t`.
-/
import proofs.«179437_j78125455114738_2_alg».proof.Proof.Gen.KernelIdeal.Skeleton
import proofs.«179437_j78125455114738_2_alg».proof.Proof.SpikeTrain
import proofs.«179437_j78125455114738_2_alg».proof.Proof.LibMiddleAxis

noncomputable section

namespace Cert.KernelIdeal.BlockValue

open Cert.KernelIdeal Cert.KernelIdeal.Gen Idealize.ShloMosaic Idealize.ShloMosaic.ValueIdx

/-- The stored block at `[p, t, f]` is the spike of the loaded block's entry `[p, f]` at step `t`. -/
theorem stored_apply (x0 : Vec Ideal S16x1024 .f32) (p : Fin 16) (t : Fin 100) (f : Fin 1024) :
    k0_pay1 (F := Ideal) x0 (ix3 p t f) = Cert.SpikeTrain.spike (x0 (ix2 p f)) t.val := by
  unfold k0_pay1
  -- the signed conversion of the widened comparison bit, at the index
  refine (Cert.SpikeTrain.sitofp_widened_bit _).trans ?_
  -- the comparison's two words at the index
  refine Eq.trans (congrArg (fun w => FloatOps.uitofp (F := Ideal) .f32 (IntOp.cmpi .eq w _))
    (Cert.LibMiddleAxis.spread_middle_apply _ shapeCasts_S16x1024_S16x1x1024 broadcasts_S16x1x1024_S16x100x1024 p t f)) ?_
  refine Eq.trans (congrArg (fun w => FloatOps.uitofp (F := Ideal) .f32 (IntOp.cmpi .eq _ w))
    (iota_single_apply .tc S16x100x1024 32 1 iota_S16x100x1024_d1_w32 (ix3 p t f))) ?_
  rfl

end Cert.KernelIdeal.BlockValue

end
-- ==== Proof.KernelTrain.lean ====
/-
  The kernel's output array is the spike train of its input array.

  The grid has 128 points.  Point `t` reads rows `16t … 16t + 15` of the intensity array (all 1024 features) and writes
  back rows `16t … 16t + 15` of the output (all 100 time steps, all 1024 features): the input block index is `(t, 0)`
  and the output block index `(t, 0, 0)`.  So entry `[p, s, f]` of the block written at point `t` sits at
  `[16t + p, s, f]` of the output array, and it was computed from entry `[p, f]` of the input block, which is
  `x[16t + p, f]`: the written entry is the spike of `x[16t + p, f]` at step `s`, which is the train's entry at
  `[16t + p, s, f]`.  Every output row `r` lies in the block of point `r / 16`, so the 128 blocks cover the array and
  the array ends holding the train.
-/
import proofs.«179437_j78125455114738_2_alg».proof.Proof.Gen.KernelIdeal.Value
import proofs.«179437_j78125455114738_2_alg».proof.Proof.KernelSpike

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices, decided over the 128 points: point `t` reads input block `(t, 0)` and writes output block
    `(t, 0, 0)`. -/
theorem block_indices : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- A grid point is below 128. -/
theorem point_lt (t : Fin cfg0.N) : t.val < 128 := Nat.lt_of_lt_of_eq t.isLt N_0

/-- Entry `[p, f]` of the input block at point `t` is `x[16t + p, f]`. -/
theorem in_block_apply (c : Dev nD) (t : Fin cfg0.N) (p : Fin 16) (f : Fin 1024) (k : S2048x1024.Idx)
    (hk0 : (k 0).val = 16 * t.val + p.val) (hk1 : (k 1).val = f.val) :
    (iblk m c 0 t : Vec Ideal S16x1024 .f32) (ix2 p f) = (V m c main_arg0 : S2048x1024.Idx → Elt Ideal .f32) k := by
  obtain ⟨e0, e1, -, -, -⟩ := block_indices t
  unfold iblk
  rw [View.read_apply]
  show V m c main_arg0 _ = V m c main_arg0 _
  refine congrArg (V m c main_arg0) (funext fun a => Fin.ext ?_)
  match a with
  | ⟨0, _⟩ => show win0_0.index t (0 : Fin 2) * 16 + 1 * p.val = (k 0).val; rw [e0, hk0]; omega
  | ⟨1, _⟩ => show win0_0.index t (1 : Fin 2) * 1024 + 1 * f.val = (k 1).val; rw [e1, hk1]; omega

/-- Entry `[p, s, f]` of the output block at point `t` sits at `[16t + p, s, f]` of the output array. -/
theorem out_block_emb (t : Fin cfg0.N) (p : Fin 16) (s : Fin 100) (f : Fin 1024) (r : Fin 2048)
    (hr : r.val = 16 * t.val + p.val) :
    (((cfg0.win 1).blk t).view.emb (ix3 p s f) : S2048x100x1024.Idx) = ix3 r s f := by
  obtain ⟨-, -, e2, e3, e4⟩ := block_indices t
  refine funext fun a => Fin.ext ?_
  match a with
  | ⟨0, _⟩ => show win0_1.index t (0 : Fin 3) * 16 + 1 * p.val = r.val; rw [e2, hr]; omega
  | ⟨1, _⟩ => show win0_1.index t (1 : Fin 3) * 100 + 1 * s.val = s.val; rw [e3]; omega
  | ⟨2, _⟩ => show win0_1.index t (2 : Fin 3) * 1024 + 1 * f.val = f.val; rw [e4]; omega

/-- One entry of what point `t` stores is the train's entry at the array index under it. -/
theorem block_entry (c : Dev nD) (t : Fin cfg0.N) (j : S16x100x1024.Idx) :
    k0_pay1 (iblk m c 0 t) j = Cert.SpikeTrain.train (V m c main_arg0) (((cfg0.win 1).blk t).view.emb j) := by
  obtain ⟨p, s, f, rfl⟩ : ∃ (p : Fin 16) (s : Fin 100) (f : Fin 1024), j = ix3 p s f := ⟨j 0, j 1, j 2, eq_ix3 j⟩
  have ht : t.val < 128 := point_lt t
  have hp : p.val < 16 := p.isLt
  refine (BlockValue.stored_apply (iblk m c 0 t) p s f).trans ?_
  refine Eq.trans (congrArg (fun x => Cert.SpikeTrain.spike x s.val)
    (in_block_apply m c t p f (ix2 (⟨16 * t.val + p.val, by omega⟩ : Fin 2048) f) rfl rfl)) ?_
  exact (congrArg (Cert.SpikeTrain.train (V m c main_arg0))
    (out_block_emb t p s f (⟨16 * t.val + p.val, by omega⟩ : Fin 2048) rfl)).symm

/-- WHAT POINT `t` WRITES BACK is block `t` of the train of the intensity array. -/
theorem flushed_eq (c : Dev nD) (t : Fin cfg0.N) :
    (dats m 0 c).flushed 1 t = ((cfg0.win 1).blk t).view.read (Elt Ideal) (Cert.SpikeTrain.train (V m c main_arg0)) := by
  rw [Value.flushed1]
  unfold out0_1
  rw [View.canon_unit_zero zero3]
  simp only [View.ld_unit_zero (S := S16x1024) zero2]
  exact funext (block_entry m c t)

/-- An index of the output array is in point `t`'s block iff each coordinate is in the block's range on its axis. -/
theorem mem_block (t : Fin cfg0.N) (i : S2048x100x1024.Idx) :
    i ∈ ((cfg0.win 1).blk t).view.set ↔ ∀ a : Fin 3, win0_1.index t a * S16x100x1024.size a ≤ (i a).val
      ∧ (i a).val < win0_1.index t a * S16x100x1024.size a + S16x100x1024.size a := by
  show i ∈ ((View.whole main_v0).slice (win0_1.rect t)).set ↔ _
  rw [View.set_slice_whole, Rect.mem_set_unit]
  exact Iff.rfl

/-- The point whose block holds output row `r`: `r / 16`. -/
def pointOf (i : S2048x100x1024.Idx) : Fin cfg0.N :=
  ⟨(i 0).val / 16, Nat.lt_of_lt_of_eq (by have h : (i 0).val < 2048 := (i 0).isLt; omega : (i 0).val / 16 < 128) N_0.symm⟩

/-- THE COVER: every index of the output array is in the block of the point of its row. -/
theorem covered (i : S2048x100x1024.Idx) :
    ∃ t : Fin cfg0.N, (cfg0.win 1).flush t = true ∧ i ∈ ((cfg0.win 1).blk t).view.set := by
  have h1 : (i 1).val < 100 := (i 1).isLt
  have h2 : (i 2).val < 1024 := (i 2).isLt
  obtain ⟨-, -, e2, e3, e4⟩ := block_indices (pointOf i)
  have e2' : win0_1.index (pointOf i) (0 : Fin 3) = (i 0).val / 16 := e2
  refine ⟨pointOf i, flush0_1 (pointOf i), ?_⟩
  rw [mem_block]
  intro a
  match a with
  | ⟨0, _⟩ =>
    show win0_1.index (pointOf i) (0 : Fin 3) * 16 ≤ (i 0).val ∧ (i 0).val < win0_1.index (pointOf i) (0 : Fin 3) * 16 + 16
    rw [e2']; omega
  | ⟨1, _⟩ =>
    show win0_1.index (pointOf i) (1 : Fin 3) * 100 ≤ (i 1).val ∧ (i 1).val < win0_1.index (pointOf i) (1 : Fin 3) * 100 + 100
    rw [e3]; omega
  | ⟨2, _⟩ =>
    show win0_1.index (pointOf i) (2 : Fin 3) * 1024 ≤ (i 2).val ∧ (i 2).val < win0_1.index (pointOf i) (2 : Fin 3) * 1024 + 1024
    rw [e4]; omega

/-- THE ARRAY after the run is the train of the intensity array as launched. -/
theorem final (c : Dev nD) :
    (dats m 0 c).arrAt 1 cfg0.N = Cert.SpikeTrain.train (m ((c : Thread nD τ).loc main_arg0)) :=
  (dats m 0 c).arrAt_eq_of_cover 1 (Cert.SpikeTrain.train (V m c main_arg0)) (fun t _ => flushed_eq m c t) covered

/-- The kernel's run, read: the output array at the train of the input array, the input unchanged. -/
theorem run : θ_run defs (onTc (τ := τ) (main (F := Ideal))) ⟨m, fun _ => 0, ρ⟩ fun r => ∀ c : Dev nD,
      r.2.mem ((c : Thread nD τ).loc main_v0) = Cert.SpikeTrain.train (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.ReferenceTrain.lean ====
/-
  The reference computes the spike train.

  Read one operation at a time, the reference's result at an index `[b, t, f]` is: the bit "word A equals word B",
  converted unsigned, where word A is the entry `[b, 0, f]` of the intensities' firing steps spread over a unit middle
  axis — that is the firing step of `x[b, f]`, `(1 - x[b, f]) · 100` converted to a signed word — and word B is the
  entry `[0, t, 0]` of the step counter `0, 1, …, 99` laid along the middle axis — that is the word `t`.  This is the
  train's entry, by definition of the train; only the two composed index maps have to be identified with the
  coordinates `(b, f)` and `t`.
-/
import proofs.«179437_j78125455114738_2_alg».proof.Proof.Gen.ReferenceIdeal.Read
import proofs.«179437_j78125455114738_2_alg».proof.Proof.SpikeTrain

noncomputable section

namespace Cert.ReferenceIdeal.RefValue

open Cert.ReferenceIdeal Cert.ReferenceIdeal.Read Idealize.ShloMosaic Idealize.ShloMosaic.ValueIdx

/-- The two broadcasts of the firing steps, composed, read the matrix at the outer coordinates `(b, f)` of `[b, t, f]`. -/
theorem entry_idx (i : S2048x100x1024.Idx) : idx_main_v6 (idx_main_v8 i) = ix2 (i 0) (i 2) :=
  funext fun a => Fin.ext (by match a with | ⟨0, _⟩ => rfl | ⟨1, _⟩ => rfl)

/-- The two broadcasts of the step counter, composed, read it at the middle coordinate `t` of `[b, t, f]`. -/
theorem step_idx (i : S2048x100x1024.Idx) : idx_main_v7 (idx_main_v9 i) = ix1 (i 1) :=
  funext fun a => Fin.ext (by match a with | ⟨0, _⟩ => rfl)

/-- The reference's result, as a function of the intensity array, is the spike train. -/
theorem result_eq (x : (⟨S2048x1024, .f32⟩ : BufTy).Contents (Elt Ideal)) :
    val_main_v11 (F := Ideal) x = Cert.SpikeTrain.train x := by
  funext i
  rw [val_main_v11_apply, val_main_v10_apply, val_main_v8_apply, val_main_v6_apply, val_main_v4_apply, val_main_v3_apply,
    val_main_v1_apply, val_main_v0_apply, val_main_cst_apply, val_main_v2_apply, val_main_cst_0_apply,
    val_main_v9_apply, val_main_v7_apply, val_main_v5_apply, entry_idx, step_idx]
  rfl

end Cert.ReferenceIdeal.RefValue

end
-- ==== Proof.lean ====
/-
  The latency-coded spike train: a pipelined kernel against the plain array expression.

  Both programs take an array `x` of intensities, 2048 rows by 1024 features, and return the array
      out[b, t, f] = 1 if int32((1 - x[b, f]) · 100) = t, else 0        (2048 × 100 × 1024),
  a one-hot code, along a time axis of 100 steps, of the step at which each intensity fires.

  The reference computes the firing steps of the whole array, spreads them over a unit middle axis, lays the counter
  0 … 99 along that axis, compares, and converts the comparison bit (unsigned) to a float.  The kernel walks 128 grid
  points; at point `i` it loads rows 16i … 16i + 15, computes their firing steps, spreads them over the 100 steps,
  compares with the counter along the time axis, widens the bit to 32 bits, converts that (signed) to a float, and
  writes the 16 × 100 × 1024 block back at rows 16i … 16i + 15.

  On the extended reals the two subtractions, products and float-to-integer conversions are the same functions of the
  same entry `x[b, f]` with the same two literals (1.0 and 100.0), so nothing is asked of the input (its finiteness is
  not used); the only difference in the arithmetic is the last conversion, and a bit widened with zeros and read
  signed is the bit read unsigned.  The rest is bookkeeping of indices: the reference's broadcasts read `[b, f]` and
  `t` at `[b, t, f]`; the kernel's block `i` is rows 16i … 16i + 15 of both arrays, and the 128 blocks cover the output.

  The modules: SpikeTrain (the train as one function of the array, and the law about the widened bit), LibMiddleAxis
  (a matrix spread over a new middle axis, read at an index), ReferenceTrain (the reference's result is the train),
  KernelSpike (one stored block, entry by entry), KernelTrain (the output array after the kernel's run is the train).
  The frames of the two kernel programs and the reference's run are the generated modules'; the rewriting pass changed
  nothing in the kernel, so the statement relating the kernel to its idealization is the trivial one.
-/
import proofs.«179437_j78125455114738_2_alg».proof.Defs
import proofs.«179437_j78125455114738_2_alg».proof.Proof.Gen.Kernel
import proofs.«179437_j78125455114738_2_alg».proof.Proof.Gen.Kernel.Frame
import proofs.«179437_j78125455114738_2_alg».proof.Proof.Gen.KernelIdeal
import proofs.«179437_j78125455114738_2_alg».proof.Proof.Gen.KernelIdeal.Frame
import proofs.«179437_j78125455114738_2_alg».proof.Proof.Gen.KernelIdeal.Value
import proofs.«179437_j78125455114738_2_alg».proof.Proof.Gen.ReferenceIdeal
import proofs.«179437_j78125455114738_2_alg».proof.Proof.Gen.ReferenceIdeal.Run
import proofs.«179437_j78125455114738_2_alg».proof.Proof.Gen.ReferenceIdeal.Read
import proofs.«179437_j78125455114738_2_alg».proof.Proof.Gen.Pre_finite_inputs
import proofs.«179437_j78125455114738_2_alg».proof.Proof.KernelTrain
import proofs.«179437_j78125455114738_2_alg».proof.Proof.ReferenceTrain
import Idealize.ShloMosaic.Adequacy
import Idealize.ShloMosaic.Init

noncomputable section

namespace Cert.Proof

open Idealize.ShloMosaic Idealize.SL.Sem

/-- The kernel as printed runs to the end without a fault and leaves its input as it was. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten for the extended reals, so there is nothing to preserve. -/
theorem preserves : Cert.preserves_Kernel_KernelIdeal := trivial

/-- From inputs that agree, the kernel's output array and the reference's result are both the spike train of the
    input: the kernel's by its run read block by block, the reference's by its run read operation by operation. -/
theorem algebraic : Cert.algebraic_KernelIdeal_ReferenceIdeal := by
  intro m ρ m' ρ' _ hagree
  refine ⟨fun c => Cert.SpikeTrain.train (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
